-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1 : Shape := ⟨2, ![1024, 1]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  main_v18

def fn {F : FTy → Type} [FloatOps F] (main_arg0 : FVec F S65536x1024 .f32) (main_arg1 : FVec F S65536x1024 .f32) (main_arg2 : FVec F S1024x1 .f32) (main_arg3 : FVec F S1024x1 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_v13 main_v16
-- ==== Kernel.lean ====
abbrev S65536x1024 : Shape := ⟨2, ![65536, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024x1, .f32⟩
  | .hbm, ⟨3, _⟩ => ⟨S1024x1, .f32⟩
  | .hbm, ⟨4, _⟩ => ⟨S1x1024, .f32⟩
  | .hbm, ⟨5, _⟩ => ⟨S1x1024, .f32⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x1_S1x1024 : S1024x1.ShapeCasts S1x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1 : Shape := ⟨2, ![1024, 1]⟩
abbrev S65536x1 : Shape := ⟨2, ![65536, 1]⟩
abbrev S1024 : Shape := ⟨1, ![1024]⟩
abbrev S1x1024 : Shape := ⟨2, ![1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024x1, .f32⟩
  | .hbm, ⟨3, _⟩ => ⟨S1024x1, .f32⟩
  | .hbm, ⟨4, _⟩ => ⟨S65536x1, .f32⟩
  | .hbm, ⟨5, _⟩ => ⟨S65536x1024, .f32⟩
  | .hbm, ⟨6, _⟩ => ⟨S65536x1024, .f32⟩
  | .hbm, ⟨7, _⟩ => ⟨S1024, .f32⟩
  | .hbm, ⟨8, _⟩ => ⟨S1x1024, .f32⟩
  | .hbm, ⟨9, _⟩ => ⟨S65536x1024, .f32⟩
  | .hbm, ⟨10, _⟩ => ⟨S65536x1024, .f32⟩
  | .hbm, ⟨11, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S65536x1_S65536x1024_0_1 : S65536x1.BroadcastsInDim S65536x1024 (![0, 1] : Fin 2 → Fin S65536x1024.rank)
  shapeCasts_S1024x1_S1024 : S1024x1.ShapeCasts S1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  dot_S65536x1024_S1024x1_S65536x1_1_0_0_1_n_n_wf : DotDims.WF S65536x1024 S1024x1 S65536x1 [1] [0] [0] [1] [] []

variable [Facts₀]

def dot_S65536x1024_S1024x1_S65536x1_1_0_0_1_n_n : DotDims S65536x1024 S1024x1 S65536x1 where
  lhsContracting := [1]
  rhsContracting := [0]
  lhsNonContracting := [0]
  rhsNonContracting := [1]
  lhsBatch := []
  rhsBatch := []
  wf := dot_S65536x1024_S1024x1_S65536x1_1_0_0_1_n_n_wf

class Facts : Prop extends Facts₀ where

variable [Facts]
-- ==== Proof.CrossSpec.lean ====
/-
  The cross layer as one function of its four argument arrays.

  For a batch of 65536 examples with 1024 features each, the layer takes the current features `xl`, the
  input features `x0`, a weight column `w` (1024 × 1) and a bias column `b` (1024 × 1), and returns, at
  example `r` and feature `c`,

      x0[r, c] · (Σ_k xl[r, k] · w[k, 0]) + b[c, 0] + xl[r, c],

  read on the extended reals, the sum taken in the additive monoid of the extended reals and the two outer
  additions grouped from the left. Both programs compute exactly this expression, with this grouping, so no
  law beyond the definitions is needed to join them and nothing here asks the entries to be finite.
-/
import Idealize.ShloMosaic.Lib.ValueIdx

noncomputable section

open scoped BigOperators

namespace Cert.Cross

open Idealize.ShloMosaic Idealize.ShloMosaic.ValueIdx

/-- The arrays of one value per example and feature. -/
abbrev SBatch : Shape := ⟨2, ![65536, 1024]⟩
/-- The weight and bias columns. -/
abbrev SCol : Shape := ⟨2, ![1024, 1]⟩

/-- Example `r`'s inner product with the weight column: `Σ_k xl[r, k] · w[k, 0]`. -/
def rowDot (xl : SBatch.Idx → EReal) (w : SCol.Idx → EReal) (r : Fin 65536) : EReal :=
  ∑ k : Fin 1024, xl (ix2 r k) * w (ix2 k (0 : Fin 1))

/-- The layer's value at example `r`, feature `c`. -/
def crossAt (xl x0 : SBatch.Idx → EReal) (w b : SCol.Idx → EReal) (r : Fin 65536) (c : Fin 1024) : EReal :=
  x0 (ix2 r c) * rowDot xl w r + b (ix2 c (0 : Fin 1)) + xl (ix2 r c)

/-- The layer's whole result array. -/
def cross (xl x0 : SBatch.Idx → EReal) (w b : SCol.Idx → EReal) : SBatch.Idx → EReal :=
  fun i => crossAt xl x0 w b (i 0) (i 1)

/-- The result array at an index given by its coordinates. -/
theorem cross_ix2 (xl x0 : SBatch.Idx → EReal) (w b : SCol.Idx → EReal) (r : Fin 65536) (c : Fin 1024) :
    cross xl x0 w b (ix2 r c) = crossAt xl x0 w b r c := rfl

end Cert.Cross

end
-- ==== Proof.CrossReference.lean ====
/-
  The reference program computes the cross layer.

  Its eight host operations are: the matrix product of the current features with the weight column (a
  65536 × 1 column of inner products), that column repeated along the feature axis, the elementwise product
  with the input features, the bias column flattened to a vector, laid out as a row and repeated along the
  batch axis, and two elementwise additions. Read at an index `(r, c)` the composition is
  `x0[r, c] · (Σ_k xl[r, k] · w[k, 0]) + b[c, 0] + xl[r, c]`: the layout operations only move indices
  (`(r, c) ↦ (r, 0)` for the repeated column, `(r, c) ↦ (0, c) ↦ c ↦ (c, 0)` for the bias), and the matrix
  product with one contracted axis is the sum over that axis.
-/
import proofs.«148365_j31310311588329_2_alg».proof.Proof.Gen.ReferenceIdeal.Read
import proofs.«148365_j31310311588329_2_alg».proof.Proof.CrossSpec

noncomputable section

open scoped BigOperators

namespace Cert.Cross.Reference

open Cert.ReferenceIdeal Cert.ReferenceIdeal.Read Idealize.ShloMosaic Idealize.ShloMosaic.ValueIdx

/-- The inner product's left operand is read along example `r`'s row, whatever the feature `c`. -/
theorem lidx_eq (r : Fin 65536) (c k : Fin 1024) : lidx_main_v0 (idx_main_v1 (ix2 r c)) k = ix2 r k :=
  funext fun a => Fin.ext (by match a with | ⟨0, _⟩ => rfl | ⟨1, _⟩ => rfl)

/-- The inner product's right operand is read down the weight column. -/
theorem ridx_eq (r : Fin 65536) (c k : Fin 1024) : ridx_main_v0 (idx_main_v1 (ix2 r c)) k = ix2 k (0 : Fin 1) :=
  funext fun a => Fin.ext (by match a with | ⟨0, _⟩ => rfl | ⟨1, _⟩ => rfl)

/-- The bias repeated over the batch is read at the feature's place in the bias column. -/
theorem bidx_eq (r : Fin 65536) (c : Fin 1024) : idx_main_v3 (idx_main_v4 (idx_main_v5 (ix2 r c))) = ix2 c (0 : Fin 1) :=
  funext fun a => Fin.ext (by match a with | ⟨0, _⟩ => exact Nat.div_one _ | ⟨1, _⟩ => rfl)

/-- The reference's result, as a function of its four arguments, is the cross layer. -/
theorem reference_eq (x0 x1 : (⟨S65536x1024, .f32⟩ : BufTy).Contents (Elt Ideal)) (x2 x3 : (⟨S1024x1, .f32⟩ : BufTy).Contents (Elt Ideal)) :
    val_main_v7 (F := Ideal) x0 x1 x2 x3 = cross x0 x1 x2 x3 := by
  funext i
  obtain ⟨r, c, rfl⟩ : ∃ (r : Fin 65536) (c : Fin 1024), i = ix2 r c := ⟨i 0, i 1, eq_ix2 i⟩
  rw [val_main_v7_apply, val_main_v6_apply, val_main_v2_apply, val_main_v1_apply, val_main_v0_apply,
    val_main_v5_apply, val_main_v4_apply, val_main_v3_apply, bidx_eq r c]
  simp only [lidx_eq, ridx_eq]
  rfl

end Cert.Cross.Reference

end
-- ==== Proof.CrossBlock.lean ====
/-
  One block of the kernel's output, element by element.

  At a grid point the kernel body holds four blocks: 1024 examples' current features `P1` and input
  features `P0` (1024 × 1024 each), the weight row `P2` and the bias row `P3` (1 × 1024 each). It repeats
  the weight row over the examples, multiplies it into `P1`, sums each example's products over the feature
  axis, repeats that column of sums over the features, multiplies it into `P0`, adds the bias row repeated
  over the examples, and adds `P1`. So the block it leaves holds, at example `p` and feature `q`,

      P0[p, q] · (Σ_k P1[p, k] · P2[0, k]) + P3[0, q] + P1[p, q].

  The sum over one axis of a vector of extended reals, started from the additive zero, is the plain sum over
  that axis's coordinates; every other step only moves an index.
-/
import proofs.«148365_j31310311588329_2_alg».proof.Proof.Gen.KernelIdeal.Value
import Idealize.ShloMosaic.Lib.ValueIdx
import Idealize.ShloMosaic.Lib.ValueLayout
import Idealize.ShloMosaic.PureOps.Ideal.Laws

noncomputable section

open scoped BigOperators

namespace Cert.Cross.Block

open Cert.KernelIdeal Cert.KernelIdeal.Gen Cert.KernelIdeal.Value Idealize.ShloMosaic Idealize.ShloMosaic.ValueIdx

/-- The weight row repeated over the block's examples reads, at example `p` and feature `k`, the row at `k`. -/
theorem weightRows_apply (P2 : FVec Ideal S1x1024 .f32) (p k : Fin 1024) :
    broadcastTo S1024x1024 (shapeCast S1x1024 P2 shapeCasts_S1x1024_S1x1024) broadcasts_S1x1024_S1024x1024 (ix2 p k)
      = P2 (ix2 (0 : Fin 1) k) := by
  rw [shapeCast_self]
  exact broadcastTo_1b_ab_apply P2 _ p k

/-- Example `p`'s sum over the feature axis of its features times the weight row is `Σ_k P1[p, k] · P2[0, k]`. -/
theorem rowSum_apply (P1 : FVec Ideal S1024x1024 .f32) (P2 : FVec Ideal S1x1024 .f32) (p : Fin 1024) :
    multiReduction .add [1] S1024 (mulf P1 (broadcastTo S1024x1024 (shapeCast S1x1024 P2 shapeCasts_S1x1024_S1x1024) broadcasts_S1x1024_S1024x1024)) 0x00000000#32 reduces_S1024x1024_S1024 (.inl rfl) rfl (ix1 p)
      = ∑ k : Fin 1024, P1 (ix2 p k) * P2 (ix2 (0 : Fin 1) k) := by
  refine (Ideal.multiReduction_add_single _ _ _ _ _ (ix1 p)).trans ?_
  show ∑ k : Fin 1024, _ = _
  refine Finset.sum_congr rfl fun k _ => ?_
  have e : reduces_S1024x1024_S1024.lift (ix1 p) k = ix2 p k :=
    funext fun a => Fin.ext (by match a with | ⟨0, _⟩ => rfl | ⟨1, _⟩ => rfl)
  rw [e, mulf_apply, weightRows_apply]

/-- The block the body leaves, at example `p` and feature `q`. -/
theorem block_apply (P0 P1 : Vec Ideal S1024x1024 .f32) (P2 P3 : Vec Ideal S1x1024 .f32) (p q : Fin 1024) :
    E4 (F := Ideal) P0 P1 P2 P3 (ix2 p q)
      = P0 (ix2 p q) * (∑ k : Fin 1024, P1 (ix2 p k) * P2 (ix2 (0 : Fin 1) k)) + P3 (ix2 (0 : Fin 1) q) + P1 (ix2 p q) := by
  have e0 : ix4_0 (ix2 p q) = ix2 p q := funext fun a => Fin.ext (by match a with | ⟨0, _⟩ => rfl | ⟨1, _⟩ => rfl)
  have e1 : ix4_1 (ix2 p q) = ix1 p := funext fun a => Fin.ext (by match a with | ⟨0, _⟩ => rfl)
  have e2 : ix4_2 (ix2 p q) = ix2 (0 : Fin 1) q := funext fun a => Fin.ext (by match a with | ⟨0, _⟩ => rfl | ⟨1, _⟩ => rfl)
  have e3 : ix4_3 (ix2 p q) = ix2 p q := funext fun a => Fin.ext (by match a with | ⟨0, _⟩ => rfl | ⟨1, _⟩ => rfl)
  show (P0 (ix4_0 (ix2 p q)) * (multiReduction (F := Ideal) .add [1] S1024 (mulf P1 (broadcastTo S1024x1024 (shapeCast S1x1024 P2 shapeCasts_S1x1024_S1x1024) broadcasts_S1x1024_S1024x1024)) 0x00000000#32 reduces_S1024x1024_S1024 (.inl rfl) rfl) (ix4_1 (ix2 p q))
      + P3 (ix4_2 (ix2 p q)) + P1 (ix4_3 (ix2 p q)) : EReal) = _
  rw [e0, e1, e2, e3, rowSum_apply]

end Cert.Cross.Block

end
-- ==== Proof.CrossArray.lean ====
/-
  From the kernel's blocks to its whole result array.

  The grid has 64 points; point `t` holds rows `1024·t … 1024·t + 1023` of the current and the input
  features, the whole weight row and the whole bias row, and writes back rows `1024·t … 1024·t + 1023` of
  the result. The weight and bias rows the kernel sees are the weight and bias columns recast from 1024 × 1
  to 1 × 1024, so entry `(0, k)` of a row is entry `(k, 0)` of its column. Hence what point `t` writes is
  block `t` of the cross layer of the four argument arrays, and since the 64 blocks of 1024 rows cover all
  65536 rows, the result array ends as the cross layer itself.
-/
import proofs.«148365_j31310311588329_2_alg».proof.Proof.Gen.KernelIdeal.Value
import proofs.«148365_j31310311588329_2_alg».proof.Proof.CrossSpec
import proofs.«148365_j31310311588329_2_alg».proof.Proof.CrossBlock
import Idealize.ShloMosaic.Lib.Pipeline.Value
import Idealize.ShloMosaic.Lib.StableHlo.Run

noncomputable section

open scoped BigOperators

namespace Cert.Cross.Array

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## One point's block, from the blocks it holds -/

/-- If the four blocks a point holds are the rows of the argument arrays that the point's output rows name —
    the features' blocks at the same row `r` of the arrays, the weight and bias rows at the columns' entries —
    then the block the body leaves is the cross layer at those rows. Stated over variables of the literal
    block types; `y` is an index of the block and `i` the array index it lands on. -/
theorem point_eq (A0 A1 : Cert.Cross.SBatch.Idx → EReal) (W B : Cert.Cross.SCol.Idx → EReal)
    (X0 X1 : Vec Ideal S1024x1024 .f32) (X2 X3 : Vec Ideal S1x1024 .f32)
    (y : S1024x1024.Idx) (i : S65536x1024.Idx) (hq : (i 1).val = (y 1).val)
    (h0 : ∀ (y' : S1024x1024.Idx) (i' : S65536x1024.Idx), (y' 0).val = (y 0).val → (i' 0).val = (i 0).val →
      (i' 1).val = (y' 1).val → X0 y' = A0 i')
    (h1 : ∀ (y' : S1024x1024.Idx) (i' : S65536x1024.Idx), (y' 0).val = (y 0).val → (i' 0).val = (i 0).val →
      (i' 1).val = (y' 1).val → X1 y' = A1 i')
    (h2 : ∀ (z : S1x1024.Idx) (u : S1024x1.Idx), (u 0).val = (z 1).val → X2 z = W u)
    (h3 : ∀ (z : S1x1024.Idx) (u : S1024x1.Idx), (u 0).val = (z 1).val → X3 z = B u) :
    E4 (F := Ideal) X1 X0 X2 X3 y = Cert.Cross.cross A0 A1 W B i := by
  obtain ⟨p, q, rfl⟩ : ∃ (p q : Fin 1024), y = ix2 p q := ⟨y 0, y 1, eq_ix2 y⟩
  obtain ⟨r, q', rfl⟩ : ∃ (r : Fin 65536) (q' : Fin 1024), i = ix2 r q' := ⟨i 0, i 1, eq_ix2 i⟩
  obtain rfl : q' = q := Fin.ext hq
  rw [Cert.Cross.Block.block_apply, Cert.Cross.cross_ix2]
  unfold Cert.Cross.crossAt Cert.Cross.rowDot
  rw [h1 (ix2 p q') (ix2 r q') rfl rfl rfl, h0 (ix2 p q') (ix2 r q') rfl rfl rfl,
    h3 (ix2 (0 : Fin 1) q') (ix2 q' (0 : Fin 1)) rfl]
  refine congrArg (fun s => A1 (ix2 r q') * s + B (ix2 q' (0 : Fin 1)) + A0 (ix2 r q')) ?_
  refine Finset.sum_congr rfl fun k _ => ?_
  rw [h0 (ix2 p k) (ix2 r k) rfl rfl rfl, h2 (ix2 (0 : Fin 1) k) (ix2 k (0 : Fin 1)) rfl]

/-! ## The windows' blocks as rows of the arrays -/

/-- The printed index maps over the 64 grid points: the three batch-sized windows sit at block row `t`,
    the two parameter rows at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point `t`'s block of the current features: row `y 0` of the block is row `1024·t + y 0` of the array. -/
theorem read_current (c : Dev nD) (t : Fin cfg0.N) (y : S1024x1024.Idx) (i : S65536x1024.Idx)
    (hr : (i 0).val = t.val * 1024 + (y 0).val) (hc : (i 1).val = (y 1).val) :
    iblk m c 0 t y = V m c main_arg0 i := by
  obtain ⟨e0, e1, -⟩ := idx_facts t
  show V m c main_arg0 (((cfg0.win 0).blk t).view.emb y) = V m c main_arg0 i
  refine congrArg (V m c main_arg0) (funext fun a => Fin.ext ?_)
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- Point `t`'s block of the input features, likewise. -/
theorem read_input (c : Dev nD) (t : Fin cfg0.N) (y : S1024x1024.Idx) (i : S65536x1024.Idx)
    (hr : (i 0).val = t.val * 1024 + (y 0).val) (hc : (i 1).val = (y 1).val) :
    iblk m c 1 t y = V m c main_arg1 i := by
  obtain ⟨-, -, e0, e1, -⟩ := idx_facts t
  show V m c main_arg1 (((cfg0.win 1).blk t).view.emb y) = V m c main_arg1 i
  refine congrArg (V m c main_arg1) (funext fun a => Fin.ext ?_)
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- The weight row the region finds is the weight column recast to one row. -/
theorem weightRow_eq (c : Dev nD) :
    (V m c main_v0 : S1x1024.Idx → EReal) = shapeCast S1x1024 (m ((c : Thread nD τ).loc main_arg2)) shapeCasts_S1024x1_S1x1024 := by
  dsimp only [Gen.V, Gen.hostOps0]; after_results; rfl

/-- The bias row the region finds is the bias column recast to one row. -/
theorem biasRow_eq (c : Dev nD) :
    (V m c main_v1 : S1x1024.Idx → EReal) = shapeCast S1x1024 (m ((c : Thread nD τ).loc main_arg3)) shapeCasts_S1024x1_S1x1024 := by
  dsimp only [Gen.V, Gen.hostOps0]; after_results; rfl

/-- A column recast to a row: entry `(0, k)` of the row is entry `(k, 0)` of the column. -/
theorem row_of_col (x : S1024x1.Idx → EReal) (z : S1x1024.Idx) (u : S1024x1.Idx) (h : (u 0).val = (z 1).val) :
    shapeCast S1x1024 x shapeCasts_S1024x1_S1x1024 z = x u := by
  have hz : (z 0).val < 1 := (z 0).isLt
  have hu : (u 1).val < 1 := (u 1).isLt
  refine shapeCast_apply x shapeCasts_S1024x1_S1x1024 z u ?_
  rw [Shape.rowMajor_val_two, Shape.rowMajor_val_two]
  show (u 0).val * 1 + (u 1).val = (z 0).val * 1024 + (z 1).val
  omega

/-- Every point's block of the weight row is the whole row: the weight column's entries. -/
theorem read_weight (c : Dev nD) (t : Fin cfg0.N) (z : S1x1024.Idx) (u : S1024x1.Idx) (h : (u 0).val = (z 1).val) :
    iblk m c 2 t z = m ((c : Thread nD τ).loc main_arg2) u := by
  obtain ⟨-, -, -, -, e0, e1, -⟩ := idx_facts t
  have hz : (z 0).val < 1 := (z 0).isLt
  show (V m c main_v0 : S1x1024.Idx → EReal) (((cfg0.win 2).blk t).view.emb z) = _
  have e : ((cfg0.win 2).blk t).view.emb z = z := by
    funext a; apply Fin.ext
    match a with
    | ⟨0, _⟩ => show win0_2.index t (0 : Fin 2) * 1 + 1 * (z 0).val = (z 0).val; omega
    | ⟨1, _⟩ => show win0_2.index t (1 : Fin 2) * 1024 + 1 * (z 1).val = (z 1).val; omega
  rw [e, weightRow_eq]
  exact row_of_col _ z u h

/-- Every point's block of the bias row is the whole row: the bias column's entries. -/
theorem read_bias (c : Dev nD) (t : Fin cfg0.N) (z : S1x1024.Idx) (u : S1024x1.Idx) (h : (u 0).val = (z 1).val) :
    iblk m c 3 t z = m ((c : Thread nD τ).loc main_arg3) u := by
  obtain ⟨-, -, -, -, -, -, e0, e1, -⟩ := idx_facts t
  have hz : (z 0).val < 1 := (z 0).isLt
  show (V m c main_v1 : S1x1024.Idx → EReal) (((cfg0.win 3).blk t).view.emb z) = _
  have e : ((cfg0.win 3).blk t).view.emb z = z := by
    funext a; apply Fin.ext
    match a with
    | ⟨0, _⟩ => show win0_3.index t (0 : Fin 2) * 1 + 1 * (z 0).val = (z 0).val; omega
    | ⟨1, _⟩ => show win0_3.index t (1 : Fin 2) * 1024 + 1 * (z 1).val = (z 1).val; omega
  rw [e, biasRow_eq]
  exact row_of_col _ z u h

/-! ## What each point writes back, and the array the 64 blocks make -/

/-- The cross layer of the arrays as the region finds them. -/
abbrev result (c : Dev nD) : S65536x1024.Idx → EReal :=
  Cert.Cross.cross (V m c main_arg0) (V m c main_arg1) (m ((c : Thread nD τ).loc main_arg2)) (m ((c : Thread nD τ).loc main_arg3))

/-- Index `j` of point `t`'s output block lands on row `1024·t + j 0`, column `j 1` of the result array. -/
theorem lands (t : Fin cfg0.N) (j : S1024x1024.Idx) :
    ((((cfg0.win 4).blk t).view.emb j) 0).val = t.val * 1024 + (j 0).val
    ∧ ((((cfg0.win 4).blk t).view.emb j) 1).val = (j 1).val := by
  obtain ⟨-, -, -, -, -, -, -, -, e0, e1⟩ := idx_facts t
  constructor
  · show win0_4.index t (0 : Fin 2) * 1024 + 1 * (j 0).val = _; omega
  · show win0_4.index t (1 : Fin 2) * 1024 + 1 * (j 1).val = _; omega

/-- The block point `t` leaves, at a block index `j` landing on the array index `i`, is the cross layer at `i`. -/
theorem left_eq (c : Dev nD) (t : Fin cfg0.N) (j : S1024x1024.Idx) (i : S65536x1024.Idx)
    (hr : (i 0).val = t.val * 1024 + (j 0).val) (hc : (i 1).val = (j 1).val) :
    E4 (F := Ideal) (iblk m c 1 t) (iblk m c 0 t) (iblk m c 2 t) (iblk m c 3 t) j = result m c i :=
  point_eq (V m c main_arg0) (V m c main_arg1) (m ((c : Thread nD τ).loc main_arg2)) (m ((c : Thread nD τ).loc main_arg3))
    (iblk m c 0 t) (iblk m c 1 t) (iblk m c 2 t) (iblk m c 3 t) j i hc
    (fun y' i' hy hi hq => read_current m c t y' i' (by omega) hq)
    (fun y' i' hy hi hq => read_input m c t y' i' (by omega) hq)
    (fun z u h => read_weight m c t z u h)
    (fun z u h => read_bias m c t z u h)

/-- Point `t` writes back block `t` of the cross layer. -/
theorem flushed_eq (c : Dev nD) (t : Fin cfg0.N) :
    (dats m 0 c).flushed 4 t = ((cfg0.win 4).blk t).view.read (Elt Ideal) (result m c) := by
  rw [Value.flushed4]
  unfold out0_4
  simp only [View.ld_unit_zero (S := S1024x1024) zero_offsets, View.ld_unit_zero (S := S1x1024) zero_offsets]
  funext j
  refine (Value.canon4_eq (F := Ideal) (iblk m c 1 t) (iblk m c 0 t) (iblk m c 2 t) (iblk m c 3 t) j).trans ?_
  exact left_eq m c t j _ (lands t j).1 (lands t j).2

/-- An index of the array is in point `t`'s block iff its row is among the block's 1024 rows. -/
theorem mem_blk (t : Fin cfg0.N) (i : S65536x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2).slice (win0_4.rect t)).set ↔ _
  rw [View.set_slice_whole, Rect.mem_set_unit]
  exact Iff.rfl

/-- Every index of the result array is in some point's block: row `r` is written by point `r / 1024`. -/
theorem cover (i : S65536x1024.Idx) :
    ∃ t : Fin cfg0.N, (cfg0.win 4).flush t = true ∧ i ∈ ((cfg0.win 4).blk t).view.set := by
  have hN : grid0.N = 64 := N_0
  have hi0 : (i 0).val < 65536 := (i 0).isLt
  have hi1 : (i 1).val < 1024 := (i 1).isLt
  let t : Fin cfg0.N := ⟨(i 0).val / 1024, by show (i 0).val / 1024 < grid0.N; omega⟩
  have ht : t.val = (i 0).val / 1024 := rfl
  obtain ⟨-, -, -, -, -, -, -, -, e0, e1⟩ := idx_facts t
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after the run is the cross layer of the four argument arrays as launched. -/
theorem final (c : Dev nD) :
    (dats m 0 c).arrAt 4 cfg0.N = Cert.Cross.cross (m ((c : Thread nD τ).loc main_arg0)) (m ((c : Thread nD τ).loc main_arg1))
      (m ((c : Thread nD τ).loc main_arg2)) (m ((c : Thread nD τ).loc main_arg3)) := by
  have h := (dats m 0 c).arrAt_eq_of_cover 4 (result m c) (fun t _ => flushed_eq m c t) cover
  rw [h]
  show Cert.Cross.cross (V m c main_arg0) (V m c main_arg1) _ _ = _
  rw [V_main_arg0 m c, V_main_arg1 m c]

/-- The kernel's run: every weakly fair execution ends with the result array at the cross layer of the
    arguments and the arguments as launched. -/
theorem run : θ_run defs (onTc (τ := τ) (main (F := Ideal))) ⟨m, fun _ => 0, ρ⟩ fun r => ∀ c : Dev nD,
      r.2.mem ((c : Thread nD τ).loc main_v2) = Cert.Cross.cross (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Cross.Array

end
-- ==== Proof.lean ====
/-
  The cross layer: a kernel that tiles the batch against its one-line reference.

  Both programs take the current features `xl` and the input features `x0` (65536 × 1024 each), a weight
  column `w` and a bias column `b` (1024 × 1 each), and return

      out[r, c] = x0[r, c] · (Σ_k xl[r, k] · w[k, 0]) + b[c, 0] + xl[r, c].

  The reference gets the inner products by one matrix product with the weight column and broadcasts the
  bias. The kernel first recasts the two columns to rows, then walks the batch in 64 blocks of 1024 rows;
  in each block it multiplies the weight row into the features, sums every example's products over the
  feature axis, and finishes with the same product and the same two additions. On the extended reals a
  matrix product with one contracted axis and a sum over one axis started from zero are both the plain sum
  over that axis, so the two results are the same expression, grouped the same way, at every index: no
  arithmetic law is used and the inputs' finiteness is never opened.

  The modules: `CrossSpec` states the layer as one function of the four arrays; `CrossReference` reads the
  reference's eight operations at an index and finds that function; `CrossBlock` reads one block of the
  kernel's body at an index; `CrossArray` identifies each block with the rows of the arrays it comes from
  and puts the 64 blocks together. Here the five claims are assembled. The idealization rewrote nothing, so
  the kernel's agreement with its idealized text asks nothing.
-/
import proofs.«148365_j31310311588329_2_alg».proof.Defs
import proofs.«148365_j31310311588329_2_alg».proof.Proof.Gen.Kernel
import proofs.«148365_j31310311588329_2_alg».proof.Proof.Gen.Kernel.Skeleton
import proofs.«148365_j31310311588329_2_alg».proof.Proof.Gen.Kernel.Launch
import proofs.«148365_j31310311588329_2_alg».proof.Proof.Gen.Kernel.Points
import proofs.«148365_j31310311588329_2_alg».proof.Proof.Gen.Kernel.Frame
import proofs.«148365_j31310311588329_2_alg».proof.Proof.Gen.KernelIdeal
import proofs.«148365_j31310311588329_2_alg».proof.Proof.Gen.KernelIdeal.Skeleton
import proofs.«148365_j31310311588329_2_alg».proof.Proof.Gen.KernelIdeal.Launch
import proofs.«148365_j31310311588329_2_alg».proof.Proof.Gen.KernelIdeal.Points
import proofs.«148365_j31310311588329_2_alg».proof.Proof.Gen.KernelIdeal.Frame
import proofs.«148365_j31310311588329_2_alg».proof.Proof.Gen.KernelIdeal.Value
import proofs.«148365_j31310311588329_2_alg».proof.Proof.Gen.ReferenceIdeal
import proofs.«148365_j31310311588329_2_alg».proof.Proof.Gen.ReferenceIdeal.Run
import proofs.«148365_j31310311588329_2_alg».proof.Proof.Gen.ReferenceIdeal.Read
import proofs.«148365_j31310311588329_2_alg».proof.Proof.Gen.Pre_finite_inputs
import proofs.«148365_j31310311588329_2_alg».proof.Proof.CrossSpec
import proofs.«148365_j31310311588329_2_alg».proof.Proof.CrossReference
import proofs.«148365_j31310311588329_2_alg».proof.Proof.CrossBlock
import proofs.«148365_j31310311588329_2_alg».proof.Proof.CrossArray
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories that agree on the four arguments, the kernel's result array and
    the reference's are both the cross layer of those arguments. -/
theorem algebraic : Cert.algebraic_KernelIdeal_ReferenceIdeal := by
  intro m ρ m' ρ' _ hagree
  refine ⟨_, Cert.Cross.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Cross.Reference.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
